-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S8192x1024 .f32) (main_arg2 : FVec F S1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S8192x1024 : Shape := ⟨2, ![8192, 1024]⟩
abbrev S1024 : Shape := ⟨1, ![1024]⟩
abbrev S1x1024 : Shape := ⟨2, ![1, 1024]⟩
abbrev S4x512x1024 : Shape := ⟨3, ![4, 512, 1024]⟩
abbrev S512x1024 : Shape := ⟨2, ![512, 1024]⟩
abbrev S1x512x1024 : Shape := ⟨3, ![1, 512, 1024]⟩
abbrev S4x512 : Shape := ⟨2, ![4, 512]⟩
abbrev S4x512x1 : Shape := ⟨3, ![4, 512, 1]⟩
abbrev S1x1x1024 : Shape := ⟨3, ![1, 1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4x8192x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S4x512x1024, .f32⟩
  | .local _ .vmem, ⟨7, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  inb_S4x512x1024_S4x512x1024_0_0_0 : ∀ a, (![0, 0, 0] : Fin 3 → Nat) a + S4x512x1024.size a ≤ S4x512x1024.size a
  h_S4x512x1024 : 0 < S4x512x1024.numel
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  broadcasts_S1x512x1024_S4x512x1024 : S1x512x1024.Broadcasts S4x512x1024
  reduces_S4x512x1024_S4x512 : S4x512x1024.Reduces [2] S4x512
  shapeCasts_S4x512_S4x512x1 : S4x512.ShapeCasts S4x512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S4x512x1_S4x512x1024 : S4x512x1.Broadcasts S4x512x1024
  broadcasts_S1x1x1024_S4x512x1024 : S1x1x1024.Broadcasts S4x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x8192x1024.size a
  hwx0_0 : ∀ i : grid0.Coords, EltTy.bits .f32 = 32 ∨ (Rect.block (s := S4x8192x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x8192x1024.size a
  hwx0_4 : ∀ i : grid0.Coords, EltTy.bits .f32 = 32 ∨ (Rect.block (s := S4x8192x1024) S4x512x1024.size (cc0_transform_4 i) (hinb0_4 i)).WholeWords (EltTy.packing .f32)

variable [Facts₀]

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S1024 : Shape := ⟨1, ![1024]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192, .i32⟩
  | .hbm, ⟨5, _⟩ => ⟨S1x8192, .i32⟩
  | .hbm, ⟨6, _⟩ => ⟨S4x8192, .i32⟩
  | .hbm, ⟨7, _⟩ => ⟨S_, .i32⟩
  | .hbm, ⟨8, _⟩ => ⟨S4x8192, .i32⟩
  | .hbm, ⟨9, _⟩ => ⟨S4x8192, .i1⟩
  | .hbm, ⟨10, _⟩ => ⟨S_, .i32⟩
  | .hbm, ⟨11, _⟩ => ⟨S4x8192, .i32⟩
  | .hbm, ⟨12, _⟩ => ⟨S4x8192, .i32⟩
  | .hbm, ⟨13, _⟩ => ⟨S4x8192, .i32⟩
  | .hbm, ⟨14, _⟩ => ⟨S4x8192x1, .i32⟩
  | .hbm, ⟨15, _⟩ => ⟨S1, .i32⟩
  | .hbm, ⟨16, _⟩ => ⟨S_, .i32⟩
  | .hbm, ⟨17, _⟩ => ⟨S4x8192x1, .i32⟩
  | .hbm, ⟨18, _⟩ => ⟨S4x8192x1, .i1⟩
  | .hbm, ⟨19, _⟩ => ⟨S1x1x1, .i32⟩
  | .hbm, ⟨20, _⟩ => ⟨S4x8192x1, .i32⟩
  | .hbm, ⟨21, _⟩ => ⟨S4x8192x1, .i1⟩
  | .hbm, ⟨22, _⟩ => ⟨S4x8192x1, .i1⟩
  | .hbm, ⟨23, _⟩ => ⟨S_, .i1⟩
  | .hbm, ⟨24, _⟩ => ⟨S4x8192, .i1⟩
  | .hbm, ⟨25, _⟩ => ⟨S4x8192x1024, .f32⟩
  | .hbm, ⟨26, _⟩ => ⟨S4x8192x1024, .i1⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x1024, .f32⟩
  | .hbm, ⟨53, _⟩ => ⟨S4x8192x1024, .f32⟩
  | .hbm, ⟨54, _⟩ => ⟨S1x1x1024, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x1024_0_1 : S4x8192.BroadcastsInDim S4x8192x1024 (![0, 1] : Fin 2 → Fin S4x8192x1024.rank)
  bcast_S_S4x8192x1024 : S_.BroadcastsInDim S4x8192x1024 (![] : Fin 0 → Fin S4x8192x1024.rank)
  reducesTo_S4x8192x1024_S4x8192_d2 : S4x8192x1024.ReducesTo [2] S4x8192
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  gather_S8192x1024_S4x8192x1_S4x8192x1024_2_0_n_n_0_2_11024_wf : GatherDims.WF S8192x1024 S4x8192x1 S4x8192x1024 [2] [0] [] [0] [] 2 ![1, 1024]

variable [Facts₀]

def gather_S8192x1024_S4x8192x1_S4x8192x1024_2_0_n_n_0_2_11024 : GatherDims S8192x1024 S4x8192x1 S4x8192x1024 where
  offsetDims := [2]
  collapsedSliceDims := [0]
  operandBatchingDims := []
  startIndicesBatchingDims := []
  startIndexMap := [0]
  indexVectorDim := 2
  sliceSizes := ![1, 1024]
  wf := gather_S8192x1024_S4x8192x1_S4x8192x1024_2_0_n_n_0_2_11024_wf

class Facts : Prop extends Facts₀ where

variable [Facts]
-- ==== Proof.LnRow.lean ====
/-
  Layer normalisation of one row of 1024 entries, on the extended reals, in two arrangements.

  The FUSED arrangement takes the two row sums S = sum x and Q = sum x^2 once, scales both by 2^-10, forms the variance
  as Q/1024 - (S/1024)^2, and writes the result as x * scale + shift with scale = rsqrt(var + eps) * w and
  shift = b - mean * scale.  The PLAIN arrangement centres the row first: mean = S / 1024,
  var = (sum (x - mean)^2) / 1024, result = ((x - mean) / sqrt(var + eps)) * w + b.

  For a row of real numbers the two agree: E[x^2] - E[x]^2 = E[(x - E[x])^2], the variance is therefore
  nonnegative and var + eps is positive, so rsqrt is the reciprocal of sqrt there, and the rest is
  distributivity in the reals.  Finiteness is essential: at an infinite entry the sums, the differences and the
  distributive law all leave the reals.
-/
import Idealize.ShloMosaic.PureOps.Ideal
import Idealize.ShloMosaic.PureOps.Ideal.Laws

noncomputable section

namespace Cert.LayerNormRow

open Idealize.ShloMosaic
open scoped BigOperators

/-! ## The three float words the two programs spell -/

/-- The word of 2^-10, the fused arrangement's factor. -/
abbrev cInv : EReal := Ideal.ofBits .f32 0x3A800000#32
/-- The word of 1024, the plain arrangement's divisor. -/
abbrev cN : EReal := Ideal.ofBits .f32 0x44800000#32
/-- The word both arrangements add to the variance. -/
abbrev cEps : EReal := Ideal.ofBits .f32 0x2B8CBCCC#32

theorem cInv_eq : cInv = ((1 / 1024 : ℝ) : EReal) := by
  simp [cInv, Ideal.ofBits, Ideal.ieee, -EReal.coe_mul]; norm_num

theorem cN_eq : cN = ((1024 : ℝ) : EReal) := by
  simp [cN, Ideal.ofBits, Ideal.ieee, -EReal.coe_mul]; norm_num

/-- The added word is a positive real (its exact value plays no part). -/
theorem cEps_pos : ∃ e : ℝ, 0 < e ∧ cEps = (e : EReal) := by
  refine ⟨((2 ^ 23 + 834764 : ℕ) : ℝ) * (2 : ℝ) ^ ((87 : ℤ) - 127 - 23), by positivity, ?_⟩
  simp [cEps, Ideal.ofBits, Ideal.ieee, -EReal.coe_mul]

/-! ## The two arrangements -/

/-- The fused arrangement from the two row sums. -/
def fusedOf (S Q xh w b : EReal) : EReal :=
  xh * (Ideal.rsqrt (Q * cInv - (S * cInv) * (S * cInv) + cEps) * w)
    + (b - (S * cInv) * (Ideal.rsqrt (Q * cInv - (S * cInv) * (S * cInv) + cEps) * w))

/-- The fused arrangement of a row. -/
def fused (x : Fin 1024 → EReal) (w b : EReal) (h : Fin 1024) : EReal :=
  fusedOf (∑ k, x k) (∑ k, x k * x k) (x h) w b

/-- The row mean as the plain arrangement takes it. -/
def mean (x : Fin 1024 → EReal) : EReal := Ideal.div (∑ k, x k) cN

/-- The plain arrangement of a row. -/
def plain (x : Fin 1024 → EReal) (w b : EReal) (h : Fin 1024) : EReal :=
  Ideal.div (x h - mean x)
      (Ideal.sqrt (Ideal.div (∑ k, (x k - mean x) * (x k - mean x)) cN + cEps)) * w + b

/-! ## Reals inside the extended reals -/

/-- A finite sum of reals, read in the extended reals term by term, is the real sum read there. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The reciprocal square root of a positive real. -/
theorem rsqrt_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-- The square root of a nonnegative real. -/
theorem sqrt_nonneg {r : ℝ} (hr : 0 ≤ r) : Ideal.sqrt (r : EReal) = ((Real.sqrt r : ℝ) : EReal) := by
  show (if r < 0 then (⊥ : EReal) else (Real.sqrt r : EReal)) = _
  rw [if_neg (not_lt.mpr hr)]

/-- A quotient by a nonzero real. -/
theorem div_real (a : ℝ) {d : ℝ} (hd : d ≠ 0) : Ideal.div (a : EReal) (d : EReal) = ((a / d : ℝ) : EReal) := by
  rw [Ideal.div_coe hd, ← EReal.coe_mul]; congr 1; field_simp

/-! ## The variance identity and the law, in the reals -/

/-- E[(x - E x)^2] = E[x^2] - (E x)^2 for 1024 real numbers. -/
theorem variance_identity (x : Fin 1024 → ℝ) :
    (∑ k, (x k - (∑ k, x k) / 1024) * (x k - (∑ k, x k) / 1024)) / 1024
      = (∑ k, x k * x k) * (1 / 1024) - ((∑ k, x k) * (1 / 1024)) * ((∑ k, x k) * (1 / 1024)) := by
  have h : ∀ k, (x k - (∑ k, x k) / 1024) * (x k - (∑ k, x k) / 1024)
      = x k * x k - 2 * ((∑ k, x k) / 1024) * x k + ((∑ k, x k) / 1024) * ((∑ k, x k) / 1024) := fun k => by ring
  simp only [h]
  rw [Finset.sum_add_distrib, Finset.sum_sub_distrib, ← Finset.mul_sum, Finset.sum_const, Finset.card_univ,
    Fintype.card_fin, nsmul_eq_mul]
  push_cast
  ring

/-- The variance is nonnegative. -/
theorem variance_nonneg (x : Fin 1024 → ℝ) :
    0 ≤ (∑ k, (x k - (∑ k, x k) / 1024) * (x k - (∑ k, x k) / 1024)) / 1024 :=
  div_nonneg (Finset.sum_nonneg fun k _ => mul_self_nonneg _) (by norm_num)

/-- THE LAW: on a row of real numbers with real weight and bias the fused arrangement is the plain one. -/
theorem fused_eq_plain (x : Fin 1024 → EReal) (w b : EReal) (hx : ∀ k, ∃ r : ℝ, x k = r) (hw : ∃ r : ℝ, w = r)
    (hb : ∃ r : ℝ, b = r) (h : Fin 1024) : fused x w b h = plain x w b h := by
  choose xr hxr using hx
  obtain ⟨wr, rfl⟩ := hw
  obtain ⟨br, rfl⟩ := hb
  obtain ⟨e, he, hE⟩ := cEps_pos
  obtain rfl : x = fun k => (xr k : EReal) := funext hxr
  have hm : mean (fun k => (xr k : EReal)) = (((∑ k, xr k) / 1024 : ℝ) : EReal) := by
    unfold mean; rw [coe_sum, cN_eq, div_real _ (by norm_num)]
  have hv := variance_identity xr
  have hv0 := variance_nonneg xr
  have hpos : 0 < (∑ k, (xr k - (∑ k, xr k) / 1024) * (xr k - (∑ k, xr k) / 1024)) / 1024 + e := by linarith
  unfold fused fusedOf plain
  rw [hm, hE, cInv_eq, cN_eq]
  simp only [← EReal.coe_mul, ← EReal.coe_sub, coe_sum, ← EReal.coe_add]
  rw [div_real _ (by norm_num : (1024 : ℝ) ≠ 0), ← EReal.coe_add, ← hv, rsqrt_pos hpos, sqrt_nonneg hpos.le,
    div_real _ (Real.sqrt_pos.mpr hpos).ne']
  simp only [← EReal.coe_mul, ← EReal.coe_sub, ← EReal.coe_add]
  congr 1
  have hs : Real.sqrt ((∑ k, (xr k - (∑ k, xr k) / 1024) * (xr k - (∑ k, xr k) / 1024)) / 1024 + e) ≠ 0 :=
    (Real.sqrt_pos.mpr hpos).ne'
  generalize Real.sqrt ((∑ k, (xr k - (∑ k, xr k) / 1024) * (xr k - (∑ k, xr k) / 1024)) / 1024 + e) = s at hs ⊢
  generalize (∑ k, xr k) = S
  field_simp
  ring

end Cert.LayerNormRow

end
-- ==== Proof.LnArray.lean ====
/-
  Layer normalisation of a [4, 8192, 1024] array of embeddings, in the two arrangements, as whole arrays.

  An embedding row (b, s) is row (b, s) of the input plus row s of the position table (the same position row for the
  four batch entries).  Each arrangement applies its row formula to every embedding row, with the weight and bias
  vectors read at the column.  Where every entry of the four arguments is a real number the two arrays are equal,
  row by row, by the row law.
-/
import proofs.«155421_g44092134261159_cont_8to1c4_605_13_alg».proof.Proof.LnRow
import Idealize.ShloMosaic.Lib.ValueIdx

noncomputable section

namespace Cert.LayerNormArray

open Idealize.ShloMosaic Idealize.ShloMosaic.ValueIdx Cert.LayerNormRow

abbrev SX : Shape := ⟨3, ![4, 8192, 1024]⟩
abbrev SP : Shape := ⟨2, ![8192, 1024]⟩
abbrev SV : Shape := ⟨1, ![1024]⟩

/-- Embedding row (b, s): the input's row plus position row s. -/
def embRow (X : SX.Idx → EReal) (P : SP.Idx → EReal) (b : Fin 4) (s : Fin 8192) : Fin 1024 → EReal :=
  fun k => X (ix3 b s k) + P (ix2 s k)

/-- The fused arrangement on every embedding row. -/
def fusedArr (X : SX.Idx → EReal) (P : SP.Idx → EReal) (W B : SV.Idx → EReal) : SX.Idx → EReal :=
  fun i => fused (embRow X P (i 0) (i 1)) (W (ix1 (i 2))) (B (ix1 (i 2))) (i 2)

/-- The plain arrangement on every embedding row. -/
def plainArr (X : SX.Idx → EReal) (P : SP.Idx → EReal) (W B : SV.Idx → EReal) : SX.Idx → EReal :=
  fun i => plain (embRow X P (i 0) (i 1)) (W (ix1 (i 2))) (B (ix1 (i 2))) (i 2)

theorem fusedArr_apply (X : SX.Idx → EReal) (P : SP.Idx → EReal) (W B : SV.Idx → EReal) (b : Fin 4) (s : Fin 8192) (h : Fin 1024) :
    fusedArr X P W B (ix3 b s h) = fused (embRow X P b s) (W (ix1 h)) (B (ix1 h)) h := rfl

theorem plainArr_apply (X : SX.Idx → EReal) (P : SP.Idx → EReal) (W B : SV.Idx → EReal) (b : Fin 4) (s : Fin 8192) (h : Fin 1024) :
    plainArr X P W B (ix3 b s h) = plain (embRow X P b s) (W (ix1 h)) (B (ix1 h)) h := rfl

/-- On arguments whose entries are all real numbers the two arrays are equal. -/
theorem arrays_agree (X : SX.Idx → EReal) (P : SP.Idx → EReal) (W B : SV.Idx → EReal)
    (hX : ∀ i, ∃ r : ℝ, X i = r) (hP : ∀ i, ∃ r : ℝ, P i = r) (hW : ∀ i, ∃ r : ℝ, W i = r) (hB : ∀ i, ∃ r : ℝ, B i = r) :
    fusedArr X P W B = plainArr X P W B := by
  funext i
  refine fused_eq_plain _ _ _ (fun k => ?_) (hW _) (hB _) (i 2)
  obtain ⟨a, ha⟩ := hX (ix3 (i 0) (i 1) k)
  obtain ⟨p, hp⟩ := hP (ix2 (i 1) k)
  exact ⟨a + p, by show X _ + P _ = _; rw [ha, hp, EReal.coe_add]⟩

end Cert.LayerNormArray

end
-- ==== Proof.LnKernelBlock.lean ====
/-
  What one grid step of the kernel leaves in its output block, index by index.

  A step holds a [4, 512, 1024] block of the input, the matching [512, 1024] rows of the position table, and the weight
  and bias as [1, 1024] rows.  Entry (b, r, h) of the block it writes is the fused arrangement of layer normalisation
  applied to row (b, r) of input plus position: the two lane sums over the last axis are the row's sum and its sum of
  squares, the position rows are shared by the four batch entries, and weight and bias are read at column h.
-/
import proofs.«155421_g44092134261159_cont_8to1c4_605_13_alg».proof.Proof.Gen.KernelIdeal.Value
import proofs.«155421_g44092134261159_cont_8to1c4_605_13_alg».proof.Proof.LnRow
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx
open scoped BigOperators

/-- The position rows, spread over the four batch entries, read at (b, r, k): row r, column k. -/
theorem spread_pos (P1 : FVec Ideal S512x1024 .f32) (b : Fin 4) (r : Fin 512) (k : Fin 1024) :
    broadcastTo S4x512x1024 (shapeCast S1x512x1024 P1 shapeCasts_S512x1024_S1x512x1024) broadcasts_S1x512x1024_S4x512x1024
        (ix3 b r k) = P1 (ix2 r k) := by
  refine (broadcastTo_apply _ _ (ix3 b r k) (ix3 (0 : Fin 1) r k) (fun a => ?_)).trans ?_
  · match a with
    | ⟨0, _⟩ => show 0 = (if (1 : Nat) = 1 then 0 else b.val); rw [if_pos rfl]
    | ⟨1, _⟩ => show r.val = (if (512 : Nat) = 1 then 0 else r.val); rw [if_neg (by decide)]
    | ⟨2, _⟩ => show k.val = (if (1024 : Nat) = 1 then 0 else k.val); rw [if_neg (by decide)]
  · refine shapeCast_apply _ _ (ix3 (0 : Fin 1) r k) (ix2 r k) ?_
    rw [Shape.rowMajor_val_two, Shape.rowMajor_val_three]
    show r.val * 1024 + k.val = (0 * 512 + r.val) * 1024 + k.val
    omega

/-- A lane sum over the last axis of a [4, 512, 1024] block, read at (b, r): the sum over the row's 1024 entries. -/
theorem lane_sum (v : FVec Ideal S4x512x1024 .f32) (hφ : FKind.Formats .f32)
    (hacc : (0x00000000#32 : BitVec 32) = FKind.add.neutral .f32 hφ) (b : Fin 4) (r : Fin 512) :
    multiReduction .add [2] S4x512 v 0x00000000#32 reduces_S4x512x1024_S4x512 hφ hacc (ix2 b r)
      = ∑ k : Fin 1024, v (ix3 b r k) :=
  (Ideal.multiReduction_add_single v _ reduces_S4x512x1024_S4x512 hφ hacc (ix2 b r)).trans
    (Finset.sum_congr rfl fun k _ => congrArg v (funext fun a => Fin.ext (by
      match a with
      | ⟨0, _⟩ => rfl
      | ⟨1, _⟩ => rfl
      | ⟨2, _⟩ => rfl)))

/-- THE BLOCK at (b, r, h): the fused arrangement of row (b, r) of input plus position, with weight and bias at h. -/
theorem block_apply (P0 : FVec Ideal S4x512x1024 .f32) (P1 : FVec Ideal S512x1024 .f32) (P2 P3 : FVec Ideal S1x1024 .f32)
    (b : Fin 4) (r : Fin 512) (h : Fin 1024) :
    Cert.KernelIdeal.Value.E4 (F := Ideal) P0 P1 P2 P3 (ix3 b r h)
      = Cert.LayerNormRow.fused (fun k => P0 (ix3 b r k) + P1 (ix2 r k)) (P2 (ix2 (0 : Fin 1) h)) (P3 (ix2 (0 : Fin 1) h)) h := by
  have hx : ∀ k : Fin 1024, (addf P0 (broadcastTo S4x512x1024 (shapeCast S1x512x1024 P1 shapeCasts_S512x1024_S1x512x1024)
      broadcasts_S1x512x1024_S4x512x1024)) (ix3 b r k) = P0 (ix3 b r k) + P1 (ix2 r k) := fun k => by
    rw [addf_apply, spread_pos]
  have hS := (lane_sum (addf P0 (broadcastTo S4x512x1024 (shapeCast S1x512x1024 P1 shapeCasts_S512x1024_S1x512x1024)
      broadcasts_S1x512x1024_S4x512x1024)) (.inl rfl) rfl b r).trans (Finset.sum_congr rfl fun k _ => hx k)
  have hQ := (lane_sum (mulf (addf P0 (broadcastTo S4x512x1024 (shapeCast S1x512x1024 P1 shapeCasts_S512x1024_S1x512x1024)
      broadcasts_S1x512x1024_S4x512x1024)) (addf P0 (broadcastTo S4x512x1024 (shapeCast S1x512x1024 P1 shapeCasts_S512x1024_S1x512x1024)
      broadcasts_S1x512x1024_S4x512x1024))) (.inl rfl) rfl b r).trans
      (Finset.sum_congr rfl fun k _ => by rw [mulf_apply, hx k])
  have e0 : Cert.KernelIdeal.Value.ix4_0 (ix3 b r h) = ix3 b r h := by
    funext a; match a with | ⟨0, _⟩ => rfl | ⟨1, _⟩ => rfl | ⟨2, _⟩ => rfl
  have e1 : Cert.KernelIdeal.Value.ix4_1 (ix3 b r h) = ix2 r h := by
    funext a; match a with | ⟨0, _⟩ => rfl | ⟨1, _⟩ => rfl
  have e2 : Cert.KernelIdeal.Value.ix4_2 (ix3 b r h) = ix2 b r := by
    funext a; match a with | ⟨0, _⟩ => rfl | ⟨1, _⟩ => rfl
  have e5 : Cert.KernelIdeal.Value.ix4_5 (ix3 b r h) = ix2 (0 : Fin 1) h := by
    funext a; match a with | ⟨0, _⟩ => rfl | ⟨1, _⟩ => rfl
  show Cert.KernelIdeal.Value.E4 (F := Ideal) P0 P1 P2 P3 (ix3 b r h) = Cert.LayerNormRow.fusedOf _ _ _ _ _
  unfold Cert.KernelIdeal.Value.E4
  beta_reduce
  rw [show Cert.KernelIdeal.Value.ix4_3 (ix3 b r h) = ix2 b r from e2,
    show Cert.KernelIdeal.Value.ix4_4 (ix3 b r h) = ix2 b r from e2,
    show Cert.KernelIdeal.Value.ix4_7 (ix3 b r h) = ix2 b r from e2,
    show Cert.KernelIdeal.Value.ix4_8 (ix3 b r h) = ix2 b r from e2,
    show Cert.KernelIdeal.Value.ix4_9 (ix3 b r h) = ix2 b r from e2,
    show Cert.KernelIdeal.Value.ix4_10 (ix3 b r h) = ix2 b r from e2,
    show Cert.KernelIdeal.Value.ix4_6 (ix3 b r h) = ix2 (0 : Fin 1) h from e5,
    show Cert.KernelIdeal.Value.ix4_11 (ix3 b r h) = ix2 (0 : Fin 1) h from e5,
    e0, e1, e2, e5, hS, hQ]
  rfl

end Cert.KernelIdeal.Block

end
-- ==== Proof.LnKernelValue.lean ====
/-
  The kernel's output array after the run, as one function of the four arguments.

  The grid walks the sequence axis in 16 steps of 512 rows.  At step t the input window holds rows 512 t … 512 t + 511
  of all four batch entries, the position window the same rows of the position table, and the weight and bias windows
  the whole vectors (as [1, 1024] rows, written by a reshape before the region).  By the block lemma the step therefore
  writes back the restriction, to those rows, of the array that applies the fused arrangement of layer normalisation to
  every embedding row.  The 16 blocks cover the array, so that array is what the output buffer holds at the end.
-/
import proofs.«155421_g44092134261159_cont_8to1c4_605_13_alg».proof.Proof.Gen.KernelIdeal.Value
import proofs.«155421_g44092134261159_cont_8to1c4_605_13_alg».proof.Proof.LnKernelBlock
import proofs.«155421_g44092134261159_cont_8to1c4_605_13_alg».proof.Proof.LnArray
import Idealize.ShloMosaic.Lib.Pipeline.Value
import Idealize.ShloMosaic.Lib.StableHlo.Run
import Idealize.ShloMosaic.Lib.ValueLayout

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.LayerNormArray
open Idealize.ShloMosaic.Pipeline (Dat)

/-! ## A block whose loads are restrictions of the arrays writes the restriction of the fused array -/

/-- If the four loads of a step are the arrays' entries at sequence rows q·512 + r, its block entry (b, r, h) is the fused
    array's entry (b, q·512 + r, h). -/
theorem block_is_restriction (X : SX.Idx → EReal) (Pt : SP.Idx → EReal) (W B : SV.Idx → EReal)
    (P0 : FVec Ideal S4x512x1024 .f32) (P1 : FVec Ideal S512x1024 .f32) (P2 P3 : FVec Ideal S1x1024 .f32)
    (row : Fin 512 → Fin 8192)
    (h0 : ∀ (b : Fin 4) (r : Fin 512) (k : Fin 1024), P0 (ix3 b r k) = X (ix3 b (row r) k))
    (h1 : ∀ (r : Fin 512) (k : Fin 1024), P1 (ix2 r k) = Pt (ix2 (row r) k))
    (h2 : ∀ k : Fin 1024, P2 (ix2 (0 : Fin 1) k) = W (ix1 k))
    (h3 : ∀ k : Fin 1024, P3 (ix2 (0 : Fin 1) k) = B (ix1 k))
    (b : Fin 4) (r : Fin 512) (h : Fin 1024) :
    Cert.KernelIdeal.Value.E4 (F := Ideal) P0 P1 P2 P3 (ix3 b r h) = fusedArr X Pt W B (ix3 b (row r) h) := by
  rw [Cert.KernelIdeal.Block.block_apply, fusedArr_apply, h2, h3]
  have : (fun k : Fin 1024 => P0 (ix3 b r k) + P1 (ix2 r k)) = embRow X Pt b (row r) :=
    funext fun k => by rw [h0, h1]; rfl
  rw [this]

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The weight and bias rows as the region finds them -/

theorem weight_row (c : Dev nD) :
    (V m c main_v0 : S1x1024.Idx → EReal) = shapeCast S1x1024 (m ((c : Thread nD τ).loc main_arg2)) shapeCasts_S1024_S1x1024 := by
  dsimp only [Gen.V, Gen.hostOps0]; after_results; rfl

theorem bias_row (c : Dev nD) :
    (V m c main_v1 : S1x1024.Idx → EReal) = shapeCast S1x1024 (m ((c : Thread nD τ).loc main_arg3)) shapeCasts_S1024_S1x1024 := by
  dsimp only [Gen.V, Gen.hostOps0]; after_results; rfl

/-! ## The index maps over the grid -/

/-- Where each window's block sits at step t: the input and output blocks at sequence block t, the position block at
    row block t, weight and bias at the origin. -/
theorem idx_facts : ∀ t : Fin cfg0.N,
    win0_0.index t (0 : Fin 3) = 0 ∧ win0_0.index t (1 : Fin 3) = win0_4.index t (1 : Fin 3) ∧ win0_0.index t (2 : Fin 3) = 0
    ∧ win0_1.index t (0 : Fin 2) = win0_4.index t (1 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (2 : Fin 3) = 0 ∧ win0_4.index t (1 : Fin 3) ≤ 15 :=
  (by decide +kernel : ∀ t : Fin grid0.N, _)

/-- Every sequence block is some step's. -/
theorem idx_onto : ∀ q : Fin 16, ∃ t : Fin cfg0.N, win0_4.index t = ![0, q.val, 0] :=
  (by decide +kernel : ∀ q : Fin 16, ∃ t : Fin grid0.N, win0_4.index t = ![0, q.val, 0])

/-! ## What step t writes back -/

/-- What a step writes back of a block's contents `Y`, at `j`: `Y` at `j`'s three coordinates (the window is never cut). -/
theorem written_apply (t : Fin cfg0.N) (Y : S4x512x1024.Idx → EReal) (j : ((cfg0.win 4).xblock (grid0.coords t)).Idx) :
    (cfg0.win 4).cut (grid0.coords t) Y j
      = Y (ix3 (⟨(j 0).val, (j 0).isLt⟩ : Fin 4) (⟨(j 1).val, (j 1).isLt⟩ : Fin 512) (⟨(j 2).val, (j 2).isLt⟩ : Fin 1024)) :=
  congrArg Y (funext fun a => Fin.ext (by
    match a with
    | ⟨0, _⟩ => rfl
    | ⟨1, _⟩ => rfl
    | ⟨2, _⟩ => rfl))

/-- An array `A` read through step t's output block, at `j`: `A` at the block's embedding of `j`. -/
theorem read_apply (t : Fin cfg0.N) (A : S4x8192x1024.Idx → EReal) (j : ((cfg0.win 4).xblock (grid0.coords t)).Idx) :
    ((cfg0.win 4).blk t).view.read (Elt Ideal) A j = A (((cfg0.win 4).blk t).view.emb j) := rfl

/-- STEP t WRITES BACK block t of the fused array of the arguments. -/
theorem flushed_eq (c : Dev nD) (t : Fin cfg0.N) :
    (dats m 0 c).flushed 4 t = ((cfg0.win 4).blk t).view.read (Elt Ideal)
      (fusedArr (V m c main_arg0) (V m c main_arg1) (m ((c : Thread nD τ).loc main_arg2)) (m ((c : Thread nD τ).loc main_arg3))) := by
  show (cfg0.win 4).cut (grid0.coords t) ((dats m 0 c).after 4 t) = _
  rw [after0_4]
  unfold out0_4
  simp only [View.ld_unit_zero (S := S4x512x1024) hz3, View.ld_unit_zero (S := S512x1024) hz2, View.ld_unit_zero (S := S1x1024) hz2]
  obtain ⟨e00, e01, e02, e10, e11, e20, e21, e30, e31, e40, e42, e41⟩ := idx_facts t
  funext j
  refine (written_apply t _ j).trans ?_
  refine (canon4_eq _ _ _ _ _).trans ?_
  refine Eq.trans ?_ (read_apply t _ j).symm
  refine (block_is_restriction (V m c main_arg0) (V m c main_arg1) (m ((c : Thread nD τ).loc main_arg2))
    (m ((c : Thread nD τ).loc main_arg3)) (iblk m c 0 t) (iblk m c 1 t) (iblk m c 2 t) (iblk m c 3 t)
    (fun r => ⟨win0_4.index t (1 : Fin 3) * 512 + r.val, by have := r.isLt; omega⟩) ?_ ?_ ?_ ?_
    (⟨(j 0).val, (j 0).isLt⟩ : Fin 4) (⟨(j 1).val, (j 1).isLt⟩ : Fin 512) (⟨(j 2).val, (j 2).isLt⟩ : Fin 1024)).trans ?_
  · intro b r k
    show V m c main_arg0 (((cfg0.win 0).blk t).view.emb (ix3 b r k)) = V m c main_arg0 _
    refine congrArg _ (funext fun a => Fin.ext ?_)
    match a with
    | ⟨0, _⟩ => show win0_0.index t (0 : Fin 3) * 4 + 1 * b.val = b.val; omega
    | ⟨1, _⟩ => show win0_0.index t (1 : Fin 3) * 512 + 1 * r.val = win0_4.index t (1 : Fin 3) * 512 + r.val; omega
    | ⟨2, _⟩ => show win0_0.index t (2 : Fin 3) * 1024 + 1 * k.val = k.val; omega
  · intro r k
    show V m c main_arg1 (((cfg0.win 1).blk t).view.emb (ix2 r k)) = V m c main_arg1 _
    refine congrArg _ (funext fun a => Fin.ext ?_)
    match a with
    | ⟨0, _⟩ => show win0_1.index t (0 : Fin 2) * 512 + 1 * r.val = win0_4.index t (1 : Fin 3) * 512 + r.val; omega
    | ⟨1, _⟩ => show win0_1.index t (1 : Fin 2) * 1024 + 1 * k.val = k.val; omega
  · intro k
    show V m c main_v0 (((cfg0.win 2).blk t).view.emb (ix2 (0 : Fin 1) k)) = _
    rw [weight_row]
    refine (congrArg _ (funext fun a => Fin.ext ?_)).trans (shapeCast_a_1a_apply _ _ (0 : Fin 1) k)
    match a with
    | ⟨0, _⟩ => show win0_2.index t (0 : Fin 2) * 1 + 1 * 0 = 0; omega
    | ⟨1, _⟩ => show win0_2.index t (1 : Fin 2) * 1024 + 1 * k.val = k.val; omega
  · intro k
    show V m c main_v1 (((cfg0.win 3).blk t).view.emb (ix2 (0 : Fin 1) k)) = _
    rw [bias_row]
    refine (congrArg _ (funext fun a => Fin.ext ?_)).trans (shapeCast_a_1a_apply _ _ (0 : Fin 1) k)
    match a with
    | ⟨0, _⟩ => show win0_3.index t (0 : Fin 2) * 1 + 1 * 0 = 0; omega
    | ⟨1, _⟩ => show win0_3.index t (1 : Fin 2) * 1024 + 1 * k.val = k.val; omega
  · refine congrArg _ (funext fun a => Fin.ext ?_)
    match a with
    | ⟨0, _⟩ => show (j 0).val = win0_4.index t (0 : Fin 3) * 4 + 1 * (j 0).val; omega
    | ⟨1, _⟩ => show win0_4.index t (1 : Fin 3) * 512 + (j 1).val = win0_4.index t (1 : Fin 3) * 512 + 1 * (j 1).val; omega
    | ⟨2, _⟩ => show (j 2).val = win0_4.index t (2 : Fin 3) * 1024 + 1 * (j 2).val; omega

/-! ## The blocks cover the array -/

theorem mem_blk (t : Fin cfg0.N) (i : S4x8192x1024.Idx) :
    i ∈ ((cfg0.win 4).blk t).view.set ↔ ∀ a : Fin 3, win0_4.index t a * S4x512x1024.size a ≤ (i a).val
      ∧ (i a).val < win0_4.index t a * S4x512x1024.size a + S4x512x1024.size a := by
  show i ∈ ((View.whole main_v2).slice (win0_4.rect t)).set ↔ _
  rw [View.set_slice_whole, Rect.mem_set_unit]
  exact Iff.rfl

/-- Sequence row s lies in the block of the step at sequence block s / 512. -/
theorem cover (i : S4x8192x1024.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 1024 := (i 2).isLt
  obtain ⟨t, ht⟩ := idx_onto ⟨(i 1).val / 512, by omega⟩
  have q0 : win0_4.index t (0 : Fin 3) = 0 := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-! ## The array after the run, and the run -/

/-- THE OUTPUT ARRAY after the run is the fused array of the arguments. -/
theorem final (c : Dev nD) :
    (dats m 0 c).arrAt 4 cfg0.N = fusedArr (m ((c : Thread nD τ).loc main_arg0)) (m ((c : Thread nD τ).loc main_arg1))
      (m ((c : Thread nD τ).loc main_arg2)) (m ((c : Thread nD τ).loc main_arg3)) := by
  rw [← V_main_arg0 m c, ← V_main_arg1 m c]
  exact (dats m 0 c).arrAt_eq_of_cover 4 _ (fun t _ => flushed_eq m c t) cover

/-- Every weakly fair execution of the kernel's program terminates with the result at the fused array of the arguments
    and the arguments unchanged. -/
theorem run : θ_run defs (onTc (τ := τ) (main (F := Ideal))) ⟨m, fun _ => 0, ρ⟩ fun r => ∀ c : Dev nD,
      r.2.mem ((c : Thread nD τ).loc main_v2) = fusedArr (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.LnRefRun.lean ====
/-
  The reference program's run, read back.

  The reference embeds each sequence position by taking row s of the position table for every batch entry (the row
  numbers are an iota, broadcast over the batch; the take wraps negative numbers, clamps, and masks what was out of
  range with a fill value), adds the input, and normalises each row of 1024 entries: mean, centred row, variance of
  the centred row, division by the square root of variance plus a constant, then weight and bias broadcast along the
  row.  Here the program is listed as its 56 host operations in order (the two outlined helper functions written out
  at their call sites), every weakly fair execution is shown to end with each buffer at the fold of those operations
  over the launch contents, and the result buffer's fold is named stage by stage as one function of the four
  arguments.
-/
import proofs.«155421_g44092134261159_cont_8to1c4_605_13_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations -/

/-- @main's operations in order, the bodies of the two helper functions at their call sites. -/
abbrev ops : List (HloOp τ sig (Elt F)) :=
  [
    nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    TRef.nullary main_call0.c (constantI S_ 32 0#32),
    TRef.unary main_call0.c main_call0.v0 (broadcastInDim S4x8192 ![] bcast_S_S4x8192),
    TRef.binary (.of main_v2) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2) main_call0.v2 main_call0.v3 addi,
    TRef.ternary main_call0.v1 main_call0.v3 (.of main_v2) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1) main_call0.v5 main_call0.v13 (fun x i => Host.gather gather_S8192x1024_S4x8192x1_S4x8192x1024_2_0_n_n_0_2_11024 x i),
    TRef.unary main_call0.v12 main_call0.v14 (broadcastInDim S4x8192x1024 ![0, 1] bcast_S4x8192_S4x8192x1024_0_1),
    TRef.nullary main_call0.cst (constant S_ .f32 0x7FC00000#32),
    TRef.unary main_call0.cst main_call0.v15 (broadcastInDim S4x8192x1024 ![] bcast_S_S4x8192x1024),
    TRef.ternary main_call0.v14 main_call0.v13 main_call0.v15 main_call0.v16 select,
    binary main_arg0 main_v3 main_v4 (addf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v4 main_cst main_v5 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v5 main_v6 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v9 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v4 main_v9 main_v10 (subf : (⟨S4x8192x1024, .f32⟩ : BufTy).Contents (Elt F) → (⟨S4x8192x1024, .f32⟩ : BufTy).Contents (Elt F) → (⟨S4x8192x1024, .f32⟩ : BufTy).Contents (Elt F)),
    binary main_v10 main_v10 main_v11 (mulf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x00000000#32),
    binary main_v11 main_cst_1 main_v12 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v12 main_v13 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44800000#32),
    unary main_cst_2 main_v14 (broadcastInDim S4x8192x1 ![] bcast_S_S4x8192x1 : (⟨S_, .f32⟩ : BufTy).Contents (Elt F) → (⟨S4x8192x1, .f32⟩ : BufTy).Contents (Elt F)),
    binary main_v13 main_v14 main_v15 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v16 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v4 main_v16 main_v17 (subf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x2B8CBCCC#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v15 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.sqrt : (⟨S4x8192x1, .f32⟩ : BufTy).Contents (Elt F) → (⟨S4x8192x1, .f32⟩ : BufTy).Contents (Elt F)),
    unary main_v20 main_v21 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v17 main_v21 main_v22 (Host.divf : (⟨S4x8192x1024, .f32⟩ : BufTy).Contents (Elt F) → (⟨S4x8192x1024, .f32⟩ : BufTy).Contents (Elt F) → (⟨S4x8192x1024, .f32⟩ : BufTy).Contents (Elt F)),
    unary main_arg2 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v22 main_v24 main_v25 (mulf : (⟨S4x8192x1024, .f32⟩ : BufTy).Contents (Elt F) → (⟨S4x8192x1024, .f32⟩ : BufTy).Contents (Elt F) → (⟨S4x8192x1024, .f32⟩ : BufTy).Contents (Elt F)),
    unary main_arg3 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v25 main_v27 main_v28 (addf : (⟨S4x8192x1024, .f32⟩ : BufTy).Contents (Elt F) → (⟨S4x8192x1024, .f32⟩ : BufTy).Contents (Elt F) → (⟨S4x8192x1024, .f32⟩ : BufTy).Contents (Elt F)) ]

set_option maxRecDepth 4096 in
/-- @main is that straight line once the helper functions are unfolded at their calls and sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every weakly fair execution of @main terminates with each buffer at the fold of the operations over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result, stage by stage -/

/-- The sequence position of every (batch, position) entry. -/
def posIds : IVec S4x8192 32 :=
  broadcastInDim S4x8192 ![0, 1] bcast_S1x8192_S4x8192_0_1
    (broadcastInDim S1x8192 ![1] bcast_S8192_S1x8192_1 (iotaInDim S8192 32 0))

/-- The row numbers handed to the take: a negative number wrapped by the table's length, as a trailing column. -/
def rowNumbers : IVec S4x8192x1 32 :=
  broadcastInDim S4x8192x1 ![0, 1] bcast_S4x8192_S4x8192x1_0_1
    (select (cmpi .slt posIds (broadcastInDim S4x8192 ![] bcast_S_S4x8192 (constantI S_ 32 0#32)))
      (addi posIds (broadcastInDim S4x8192 ![] bcast_S_S4x8192 (constantI S_ 32 8192#32))) posIds)

/-- Whether a row number lies in [0, 8191]. -/
def inRange : IVec S4x8192 1 :=
  Host.reduce IntOp.andi
    (andi (cmpi .sge rowNumbers (broadcastInDim S4x8192x1 ![] bcast_S_S4x8192x1 (constantI S_ 32 0#32)))
      (cmpi .sle rowNumbers (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- The rows taken from the table `P`, the fill value where the row number was out of range. -/
def taken (P : FVec F S8192x1024 .f32) : FVec F S4x8192x1024 .f32 :=
  select (broadcastInDim S4x8192x1024 ![0, 1] bcast_S4x8192_S4x8192x1024_0_1 inRange)
    (Host.gather gather_S8192x1024_S4x8192x1_S4x8192x1024_2_0_n_n_0_2_11024 P rowNumbers)
    (broadcastInDim S4x8192x1024 ![] bcast_S_S4x8192x1024 (constant S_ .f32 0x7FC00000#32))

/-- The mean of each row, as a trailing column. -/
def meanCol (E : FVec F S4x8192x1024 .f32) : FVec F S4x8192x1 .f32 :=
  Host.divf
    (broadcastInDim S4x8192x1 ![0, 1] bcast_S4x8192_S4x8192x1_0_1
      (Host.reduceAdd E (constant S_ .f32 0x00000000#32) reducesTo_S4x8192x1024_S4x8192_d2 h_S_))
    (broadcastInDim S4x8192x1 ![] bcast_S_S4x8192x1 (constant S_ .f32 0x44800000#32))

/-- Each row minus its mean. -/
def centred (E : FVec F S4x8192x1024 .f32) : FVec F S4x8192x1024 .f32 :=
  subf E (broadcastInDim S4x8192x1024 ![0, 1, 2] bcast_S4x8192x1_S4x8192x1024_0_1_2 (meanCol E))

/-- The variance of each row, as a trailing column. -/
def varCol (E : FVec F S4x8192x1024 .f32) : FVec F S4x8192x1 .f32 :=
  Host.divf
    (broadcastInDim S4x8192x1 ![0, 1] bcast_S4x8192_S4x8192x1_0_1
      (Host.reduceAdd (mulf (centred E) (centred E)) (constant S_ .f32 0x00000000#32) reducesTo_S4x8192x1024_S4x8192_d2 h_S_))
    (broadcastInDim S4x8192x1 ![] bcast_S_S4x8192x1 (constant S_ .f32 0x44800000#32))

/-- The normalised rows, scaled by the weight and shifted by the bias. -/
def normed (E : FVec F S4x8192x1024 .f32) (W B : FVec F S1024 .f32) : FVec F S4x8192x1024 .f32 :=
  addf
    (mulf
      (Host.divf (centred E)
        (broadcastInDim S4x8192x1024 ![0, 1, 2] bcast_S4x8192x1_S4x8192x1024_0_1_2
          (Host.sqrt (addf (varCol E) (broadcastInDim S4x8192x1 ![] bcast_S_S4x8192x1 (constant S_ .f32 0x2B8CBCCC#32))))))
      (broadcastInDim S4x8192x1024 ![0, 1, 2] bcast_S1x1x1024_S4x8192x1024_0_1_2
        (broadcastInDim S1x1x1024 ![2] bcast_S1024_S1x1x1024_2 W)))
    (broadcastInDim S4x8192x1024 ![0, 1, 2] bcast_S1x1x1024_S4x8192x1024_0_1_2
      (broadcastInDim S1x1x1024 ![2] bcast_S1024_S1x1x1024_2 B))

/-- The reference's result as one function of its four arguments. -/
def refOut (X : FVec F S4x8192x1024 .f32) (P : FVec F S8192x1024 .f32) (W B : FVec F S1024 .f32) : FVec F S4x8192x1024 .f32 :=
  normed (addf X (taken P)) W B

attribute [local irreducible] Host.reduce Host.reduceAdd Host.gather Host.divf Host.sqrt in
set_option maxRecDepth 8192 in
set_option maxHeartbeats 1000000 in
/-- The fold at the result buffer is that function of the arguments' contents. -/
theorem out_eq (V : Valuation τ sig (Elt F)) :
    after ops V (main_v28 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl

/-- Every weakly fair execution of @main terminates with the result at `refOut` of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_fold m ρ)

end Cert.ReferenceIdeal.RefRun

end
-- ==== Proof.LibTakeRows.lean ====
/-
  Rows of a table taken at an array of row numbers, read at an index.

  What `x[idx]` of a table `x : [N, A]` at an integer array `idx : [R, C]` lowers to: a gather with the row numbers
  as `[R, C, 1]`, the row axis collapsed, the column axis an offset axis of full extent placed last. Result element
  `(r, c, a)` is `x` at row `idx[r, c, 0]` — read as a signed integer and clamped into `[0, N - 1]`, as the gather
  clamps every start index — and at column `a`.
-/
import Idealize.ShloMosaic.Lib.ValueIdx

noncomputable section

namespace Idealize.ShloMosaic.TakeRows

open Idealize.ShloMosaic Idealize.ShloMosaic.ValueIdx

variable {α : Type}

/-- The dimension numbers of taking rows of `[N, A]` at `[R, C, 1]` row numbers into `[R, C, A]`. -/
abbrev dims (N A R C : Nat)
    (wf : GatherDims.WF ⟨2, ![N, A]⟩ ⟨3, ![R, C, 1]⟩ ⟨3, ![R, C, A]⟩ [2] [0] [] [0] [] 2 ![1, A]) :
    GatherDims ⟨2, ![N, A]⟩ ⟨3, ![R, C, 1]⟩ ⟨3, ![R, C, A]⟩ where
  offsetDims := [2]
  collapsedSliceDims := [0]
  operandBatchingDims := []
  startIndicesBatchingDims := []
  startIndexMap := [0]
  indexVectorDim := 2
  sliceSizes := ![1, A]
  wf := wf

/-- The row a start index selects: its signed value clamped into `[0, N - 1]`. -/
def rowOf (N : Nat) (hN : 0 < N) {w : Nat} (v : BitVec w) : Fin N := ⟨min v.toInt.toNat (N - 1), by omega⟩

/-- A start index that is a row number below `N` (and below `2^(w-1)`, so nonnegative as a signed integer) selects
    that row. -/
theorem rowOf_ofNat {N : Nat} (hN : 0 < N) {w : Nat} (s : Nat) (hs : s < N) (hw : 2 * s < 2 ^ w) :
    rowOf N hN (BitVec.ofNat w s) = ⟨s, hs⟩ := by
  refine Fin.ext ?_
  show min (BitVec.ofNat w s).toInt.toNat (N - 1) = s
  have h1 : (BitVec.ofNat w s).toNat = s := by
    rw [BitVec.toNat_ofNat]; exact Nat.mod_eq_of_lt (by omega)
  have h2 : (BitVec.ofNat w s).toInt = (s : Int) := by
    rw [BitVec.toInt_eq_toNat_cond, h1, if_pos hw]
  rw [h2, Int.toNat_natCast]
  omega

/-- THE READ at `(r, c, a)`. -/
theorem take_rows_apply {N A R C w : Nat} (hN : 0 < N)
    (wf : GatherDims.WF ⟨2, ![N, A]⟩ ⟨3, ![R, C, 1]⟩ ⟨3, ![R, C, A]⟩ [2] [0] [] [0] [] 2 ![1, A])
    (x : (⟨2, ![N, A]⟩ : Shape).Idx → α) (idx : IVec ⟨3, ![R, C, 1]⟩ w) (r : Fin R) (c : Fin C) (a : Fin A) :
    Host.gather (dims N A R C wf) x idx (ix3 r c a) = x (ix2 (rowOf N hN (idx (ix3 r c (0 : Fin 1)))) a) := by
  unfold Host.gather
  refine congrArg x ?_
  funext ax
  refine Fin.ext ?_
  show (dims N A R C wf).start (ix3 r c a) idx ax + (dims N A R C wf).batchCoord (ix3 r c a) ax
      + (dims N A R C wf).offCoord (ix3 r c a) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (dims N A R C wf).startIndexMap from List.mem_singleton.mpr rfl)]
    have hsi : (dims N A R C wf).siIdx (ix3 r c a) ⟨List.idxOf (⟨0, by decide⟩ : Fin 2) (dims N A R C wf).startIndexMap,
        List.idxOf_lt_length_iff.2 (List.mem_singleton.mpr rfl)⟩ = ix3 r c (0 : Fin 1) := by
      funext d; refine Fin.ext ?_
      match d with
      | ⟨0, _⟩ => rfl
      | ⟨1, _⟩ => rfl
      | ⟨2, _⟩ => rfl
    rw [hsi]
    rfl
  | ⟨1, _⟩ =>
    unfold GatherDims.start
    rw [dif_neg (show ¬ (⟨1, _⟩ : Fin 2) ∈ (dims N A R C wf).startIndexMap by
      show ¬ (⟨1, _⟩ : Fin 2) ∈ [(0 : Fin 2)]
      simp [Fin.ext_iff])]
    unfold GatherDims.offCoord
    rw [dif_pos (show (⟨1, _⟩ : Fin 2) ∈ (dims N A R C wf).sKept from
      (GatherDims.mem_sKept _ _).mpr ⟨by show ¬ (⟨1, _⟩ : Fin 2) ∈ [(0 : Fin 2)]; simp [Fin.ext_iff], List.not_mem_nil⟩)]
    simp only [Nat.zero_add]
    rfl

end Idealize.ShloMosaic.TakeRows

end
-- ==== Proof.LnRefRead.lean ====
/-
  The reference's result read at one index (b, s, h), at the ideal values.

  The row numbers handed to the take are the sequence positions themselves (an iota, never negative, never beyond the
  table's 8192 rows), so the wrap leaves them alone, the range mask is true everywhere and the take returns row s of
  the position table; the fill value is never selected.  A float sum over the last axis read at (b, s) is the sum of the
  row's 1024 entries; the trailing-column and row broadcasts read the column at (b, s, 0) and the vector at h.  Put
  together, entry (b, s, h) of the result is the plain arrangement of layer normalisation applied to row (b, s) of input
  plus position row s, with weight and bias at h.
-/
import proofs.«155421_g44092134261159_cont_8to1c4_605_13_alg».proof.Proof.LnRefRun
import proofs.«155421_g44092134261159_cont_8to1c4_605_13_alg».proof.Proof.LnRow
import proofs.«155421_g44092134261159_cont_8to1c4_605_13_alg».proof.Proof.LibTakeRows
import Idealize.ShloMosaic.Lib.IdealHost
import Idealize.ShloMosaic.Lib.ValueLayout
import Idealize.ShloMosaic.Lib.Pipeline.Value
import Idealize.ShloMosaic.PureOps.Reduce
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open scoped BigOperators

/-! ## Integer facts about a row number below 8192 -/

theorem toInt_small (s : Nat) (hs : s < 8192) : (BitVec.ofNat 32 s).toInt = (s : Int) := by
  have h1 : (BitVec.ofNat 32 s).toNat = s := by rw [BitVec.toNat_ofNat]; exact Nat.mod_eq_of_lt (by omega)
  rw [BitVec.toInt_eq_toNat_cond, h1, if_pos (by omega)]

theorem not_negative (s : Nat) (hs : s < 8192) : IntOp.cmpi .slt (BitVec.ofNat 32 s) 0#32 = 0#1 := by
  show BitVec.ofBool ((BitVec.ofNat 32 s).slt 0#32) = 0#1
  have : (BitVec.ofNat 32 s).slt 0#32 = false := by
    unfold BitVec.slt
    rw [toInt_small s hs, show (0#32 : BitVec 32).toInt = 0 from toInt_small 0 (by omega)]
    exact decide_eq_false (by omega)
  rw [this]; rfl

theorem at_least_zero (s : Nat) (hs : s < 8192) : IntOp.cmpi .sge (BitVec.ofNat 32 s) 0#32 = 1#1 := by
  show BitVec.ofBool ((0#32 : BitVec 32).sle (BitVec.ofNat 32 s)) = 1#1
  have : (0#32 : BitVec 32).sle (BitVec.ofNat 32 s) = true := by
    unfold BitVec.sle
    rw [toInt_small s hs, show (0#32 : BitVec 32).toInt = 0 from toInt_small 0 (by omega)]
    exact decide_eq_true (by omega)
  rw [this]; rfl

theorem at_most_last (s : Nat) (hs : s < 8192) : IntOp.cmpi .sle (BitVec.ofNat 32 s) 8191#32 = 1#1 := by
  show BitVec.ofBool ((BitVec.ofNat 32 s).sle 8191#32) = 1#1
  have : (BitVec.ofNat 32 s).sle 8191#32 = true := by
    unfold BitVec.sle
    rw [toInt_small s hs, show (8191#32 : BitVec 32).toInt = 8191 from toInt_small 8191 (by omega)]
    exact decide_eq_true (by omega)
  rw [this]; rfl

/-- A fold by `and` over ones, from one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 by decide]
    exact foldl_andi_ones f hf l

/-- A reduce by `and`, from one, of an array of ones is one everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x hx _

/-! ## The broadcasts of this program, read at an index -/

variable {α : Type}

/-- [4, 8192] as a trailing column [4, 8192, 1]. -/
theorem col_apply (x : S4x8192.Idx → α) (b : Fin 4) (s : Fin 8192) :
    broadcastInDim S4x8192x1 ![0, 1] bcast_S4x8192_S4x8192x1_0_1 x (ix3 b s (0 : Fin 1)) = x (ix2 b s) := by
  refine broadcastInDim_apply _ _ x (ix3 b s (0 : Fin 1)) (ix2 b s) (fun a => ?_)
  match a with
  | ⟨0, _⟩ => show b.val = (if (4 : Nat) = 1 then 0 else b.val); rw [if_neg (by decide)]
  | ⟨1, _⟩ => show s.val = (if (8192 : Nat) = 1 then 0 else s.val); rw [if_neg (by decide)]

/-- A trailing column [4, 8192, 1] spread along the row. -/
theorem spread_col_apply (x : S4x8192x1.Idx → α) (b : Fin 4) (s : Fin 8192) (h : Fin 1024) :
    broadcastInDim S4x8192x1024 ![0, 1, 2] bcast_S4x8192x1_S4x8192x1024_0_1_2 x (ix3 b s h) = x (ix3 b s (0 : Fin 1)) := by
  refine broadcastInDim_apply _ _ x (ix3 b s h) (ix3 b s (0 : Fin 1)) (fun a => ?_)
  match a with
  | ⟨0, _⟩ => show b.val = (if (4 : Nat) = 1 then 0 else b.val); rw [if_neg (by decide)]
  | ⟨1, _⟩ => show s.val = (if (8192 : Nat) = 1 then 0 else s.val); rw [if_neg (by decide)]
  | ⟨2, _⟩ => show 0 = (if (1 : Nat) = 1 then 0 else h.val); rw [if_pos rfl]

/-- [4, 8192] spread along the row. -/
theorem spread_pair_apply (x : S4x8192.Idx → α) (b : Fin 4) (s : Fin 8192) (h : Fin 1024) :
    broadcastInDim S4x8192x1024 ![0, 1] bcast_S4x8192_S4x8192x1024_0_1 x (ix3 b s h) = x (ix2 b s) := by
  refine broadcastInDim_apply _ _ x (ix3 b s h) (ix2 b s) (fun a => ?_)
  match a with
  | ⟨0, _⟩ => show b.val = (if (4 : Nat) = 1 then 0 else b.val); rw [if_neg (by decide)]
  | ⟨1, _⟩ => show s.val = (if (8192 : Nat) = 1 then 0 else s.val); rw [if_neg (by decide)]

/-- A vector of 1024 entries spread over batch and position. -/
theorem row_vector_apply (W : S1024.Idx → α) (b : Fin 4) (s : Fin 8192) (h : Fin 1024) :
    broadcastInDim S4x8192x1024 ![0, 1, 2] bcast_S1x1x1024_S4x8192x1024_0_1_2
      (broadcastInDim S1x1x1024 ![2] bcast_S1024_S1x1x1024_2 W) (ix3 b s h) = W (ix1 h) := by
  refine (broadcastInDim_apply _ _ _ (ix3 b s h) (ix3 (0 : Fin 1) (0 : Fin 1) h) (fun a => ?_)).trans ?_
  · match a with
    | ⟨0, _⟩ => show 0 = (if (1 : Nat) = 1 then 0 else b.val); rw [if_pos rfl]
    | ⟨1, _⟩ => show 0 = (if (1 : Nat) = 1 then 0 else s.val); rw [if_pos rfl]
    | ⟨2, _⟩ => show h.val = (if (1024 : Nat) = 1 then 0 else h.val); rw [if_neg (by decide)]
  · refine broadcastInDim_apply _ _ W (ix3 (0 : Fin 1) (0 : Fin 1) h) (ix1 h) (fun a => ?_)
    match a with
    | ⟨0, _⟩ => show h.val = (if (1024 : Nat) = 1 then 0 else h.val); rw [if_neg (by decide)]

/-- The one-entry vector spread as a trailing column. -/
theorem unit_col_apply (x : S1.Idx → α) (b : Fin 4) (s : Fin 8192) :
    broadcastInDim S4x8192x1 ![0, 1, 2] bcast_S1x1x1_S4x8192x1_0_1_2
      (broadcastInDim S1x1x1 ![2] bcast_S1_S1x1x1_2 x) (ix3 b s (0 : Fin 1)) = x (ix1 (0 : Fin 1)) := by
  refine (broadcastInDim_apply _ _ _ (ix3 b s (0 : Fin 1)) (ix3 (0 : Fin 1) (0 : Fin 1) (0 : Fin 1)) (fun a => ?_)).trans ?_
  · match a with
    | ⟨0, _⟩ => show 0 = (if (1 : Nat) = 1 then 0 else b.val); rw [if_pos rfl]
    | ⟨1, _⟩ => show 0 = (if (1 : Nat) = 1 then 0 else s.val); rw [if_pos rfl]
    | ⟨2, _⟩ => show 0 = (if (1 : Nat) = 1 then 0 else 0); rw [if_pos rfl]
  · refine broadcastInDim_apply _ _ x (ix3 (0 : Fin 1) (0 : Fin 1) (0 : Fin 1)) (ix1 (0 : Fin 1)) (fun a => ?_)
    match a with
    | ⟨0, _⟩ => show 0 = (if (1 : Nat) = 1 then 0 else 0); rw [if_pos rfl]

/-! ## The take -/

/-- The position of entry (b, s) is s. -/
theorem posIds_apply (b : Fin 4) (s : Fin 8192) : posIds (ix2 b s) = BitVec.ofNat 32 s.val := by
  unfold posIds
  refine (broadcastInDim_apply _ _ _ (ix2 b s) (ix2 (0 : Fin 1) s) (fun a => ?_)).trans ?_
  · match a with
    | ⟨0, _⟩ => show 0 = (if (1 : Nat) = 1 then 0 else b.val); rw [if_pos rfl]
    | ⟨1, _⟩ => show s.val = (if (8192 : Nat) = 1 then 0 else s.val); rw [if_neg (by decide)]
  · refine (broadcastInDim_apply _ _ _ (ix2 (0 : Fin 1) s) (ix1 s) (fun a => ?_)).trans rfl
    match a with
    | ⟨0, _⟩ => show s.val = (if (8192 : Nat) = 1 then 0 else s.val); rw [if_neg (by decide)]

/-- The row number handed to the take for entry (b, s) is s: the wrap does not touch it. -/
theorem rowNumbers_apply (b : Fin 4) (s : Fin 8192) : rowNumbers (ix3 b s (0 : Fin 1)) = BitVec.ofNat 32 s.val := by
  unfold rowNumbers
  rw [col_apply, select_apply]
  have hc : cmpi .slt posIds (broadcastInDim S4x8192 ![] bcast_S_S4x8192 (constantI S_ 32 0#32)) (ix2 b s) = 0#1 := by
    show IntOp.cmpi .slt (posIds (ix2 b s)) (broadcastInDim S4x8192 ![] bcast_S_S4x8192 (constantI S_ 32 0#32) (ix2 b s)) = 0#1
    rw [posIds_apply, broadcastInDim_scalar_apply]
    exact not_negative s.val s.isLt
  rw [hc, select_zero, posIds_apply]

/-- Every row number is in range. -/
theorem inRange_apply (b : Fin 4) (s : Fin 8192) : inRange (ix2 b s) = 1#1 := by
  unfold inRange
  refine reduce_andi_one _ _ _ _ _ rfl (fun i => ?_)
  obtain ⟨b', s', z, rfl⟩ : ∃ (b' : Fin 4) (s' : Fin 8192) (z : Fin 1), i = ix3 b' s' z := ⟨i 0, i 1, i 2, eq_ix3 i⟩
  obtain rfl : z = 0 := Subsingleton.elim _ _
  show IntOp.andi
      (IntOp.cmpi .sge (rowNumbers (ix3 b' s' (0 : Fin 1)))
        (broadcastInDim S4x8192x1 ![] bcast_S_S4x8192x1 (constantI S_ 32 0#32) (ix3 b' s' (0 : Fin 1))))
      (IntOp.cmpi .sle (rowNumbers (ix3 b' s' (0 : Fin 1)))
        (broadcastInDim S4x8192x1 ![0, 1, 2] bcast_S1x1x1_S4x8192x1_0_1_2
          (broadcastInDim S1x1x1 ![2] bcast_S1_S1x1x1_2 (constantI S1 32 8191#32)) (ix3 b' s' (0 : Fin 1)))) = 1#1
  rw [rowNumbers_apply, broadcastInDim_scalar_apply, unit_col_apply]
  show IntOp.andi (IntOp.cmpi .sge (BitVec.ofNat 32 s'.val) 0#32) (IntOp.cmpi .sle (BitVec.ofNat 32 s'.val) 8191#32) = 1#1
  rw [at_least_zero s'.val s'.isLt, at_most_last s'.val s'.isLt]
  decide

/-- THE TAKE: entry (b, s, h) is the position table at (s, h). -/
theorem taken_apply (P : FVec Ideal S8192x1024 .f32) (b : Fin 4) (s : Fin 8192) (h : Fin 1024) :
    taken P (ix3 b s h) = P (ix2 s h) := by
  unfold taken
  rw [select_apply, spread_pair_apply, inRange_apply, select_one]
  refine (TakeRows.take_rows_apply (N := 8192) (A := 1024) (R := 4) (C := 8192) (by decide)
    gather_S8192x1024_S4x8192x1_S4x8192x1024_2_0_n_n_0_2_11024_wf P rowNumbers b s h).trans ?_
  rw [rowNumbers_apply, TakeRows.rowOf_ofNat (by decide) s.val s.isLt (by have := s.isLt; omega)]

/-! ## The normalisation -/

/-- A float sum over the last axis read at (b, s): the sum of the row's 1024 entries. -/
theorem row_sum_apply (E : FVec Ideal S4x8192x1024 .f32) (b : Fin 4) (s : Fin 8192) :
    Host.reduceAdd E (constant (F := Ideal) S_ .f32 0x00000000#32) reducesTo_S4x8192x1024_S4x8192_d2 h_S_ (ix2 b s)
      = ∑ k : Fin 1024, E (ix3 b s k) := by
  rw [hostReduceAdd_apply,
    Ideal.hostReduceAdd_single reducesTo_S4x8192x1024_S4x8192_d2 (by decide : S4x8192x1024.Reduces [2] S4x8192) E _ (ix2 b s),
    constant_apply, Ideal.ofBits_zero_f32, zero_add]
  refine Finset.sum_congr rfl fun k _ => congrArg E (funext fun a => Fin.ext ?_)
  match a with
  | ⟨0, _⟩ => rfl
  | ⟨1, _⟩ => rfl
  | ⟨2, _⟩ => rfl

/-- The mean column at (b, s, 0): the row's sum over 1024. -/
theorem meanCol_apply (E : FVec Ideal S4x8192x1024 .f32) (b : Fin 4) (s : Fin 8192) :
    meanCol E (ix3 b s (0 : Fin 1)) = Cert.LayerNormRow.mean (fun k => E (ix3 b s k)) := by
  unfold meanCol Cert.LayerNormRow.mean
  rw [hostDivf_apply, col_apply, row_sum_apply, broadcastInDim_scalar_apply, constant_apply]

/-- The centred row at (b, s, k). -/
theorem centred_apply (E : FVec Ideal S4x8192x1024 .f32) (b : Fin 4) (s : Fin 8192) (k : Fin 1024) :
    centred E (ix3 b s k) = E (ix3 b s k) - Cert.LayerNormRow.mean (fun k => E (ix3 b s k)) := by
  unfold centred
  rw [subf_apply, spread_col_apply, meanCol_apply]

/-- The variance column at (b, s, 0). -/
theorem varCol_apply (E : FVec Ideal S4x8192x1024 .f32) (b : Fin 4) (s : Fin 8192) :
    varCol E (ix3 b s (0 : Fin 1))
      = Ideal.div (∑ k : Fin 1024, (E (ix3 b s k) - Cert.LayerNormRow.mean (fun k => E (ix3 b s k)))
          * (E (ix3 b s k) - Cert.LayerNormRow.mean (fun k => E (ix3 b s k)))) Cert.LayerNormRow.cN := by
  unfold varCol
  rw [hostDivf_apply, col_apply, row_sum_apply, broadcastInDim_scalar_apply, constant_apply]
  refine congrArg (fun t => Ideal.div t _) (Finset.sum_congr rfl fun k _ => ?_)
  rw [mulf_apply, centred_apply]

/-- The normalised result at (b, s, h): the plain arrangement of row (b, s). -/
theorem normed_apply (E : FVec Ideal S4x8192x1024 .f32) (W B : FVec Ideal S1024 .f32) (b : Fin 4) (s : Fin 8192) (h : Fin 1024) :
    normed E W B (ix3 b s h)
      = Cert.LayerNormRow.plain (fun k => E (ix3 b s k)) (W (ix1 h)) (B (ix1 h)) h := by
  unfold normed Cert.LayerNormRow.plain
  rw [addf_apply, mulf_apply, hostDivf_apply, spread_col_apply, row_vector_apply, row_vector_apply, centred_apply]
  show Ideal.div _ (Ideal.sqrt (varCol E (ix3 b s (0 : Fin 1))
      + broadcastInDim S4x8192x1 ![] bcast_S_S4x8192x1 (constant (F := Ideal) S_ .f32 0x2B8CBCCC#32) (ix3 b s (0 : Fin 1)))) * _ + _ = _
  rw [varCol_apply, broadcastInDim_scalar_apply, constant_apply]

/-- THE REFERENCE'S RESULT at (b, s, h): the plain arrangement of layer normalisation on row (b, s) of input plus position
    row s, with weight and bias at h. -/
theorem refOut_apply (X : FVec Ideal S4x8192x1024 .f32) (P : FVec Ideal S8192x1024 .f32) (W B : FVec Ideal S1024 .f32)
    (b : Fin 4) (s : Fin 8192) (h : Fin 1024) :
    refOut X P W B (ix3 b s h)
      = Cert.LayerNormRow.plain (fun k => X (ix3 b s k) + P (ix2 s k)) (W (ix1 h)) (B (ix1 h)) h := by
  unfold refOut
  rw [normed_apply]
  have hE : (fun k : Fin 1024 => (addf X (taken P)) (ix3 b s k)) = fun k => X (ix3 b s k) + P (ix2 s k) :=
    funext fun k => by rw [addf_apply, taken_apply]
  rw [hE]

end Cert.ReferenceIdeal.RefRead

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.LnFinite.lean ====
/-
  From the precondition to real entries.

  The precondition is the conjunction, over the four arguments, of "every entry's absolute value is below +inf".  Split
  at the three conjunctions; each conjunct says that a reduction by `and` over the whole array came out true, hence
  every entry of that argument is a real number at the ideal values.
-/
import proofs.«155421_g44092134261159_cont_8to1c4_605_13_alg».proof.Pre_finite_inputs
import proofs.«155421_g44092134261159_cont_8to1c4_605_13_alg».proof.Proof.LibFiniteAll
import Idealize.ShloMosaic.Lib.Affine

noncomputable section

namespace Cert.FiniteInputs

open Idealize.ShloMosaic Cert.Pre_finite_inputs

/-- Under the precondition every entry of every argument is a real number. -/
theorem entries_real [Cert.Pre_finite_inputs.Facts] (X : FVec Ideal S4x8192x1024 .f32) (P : FVec Ideal S8192x1024 .f32)
    (W B : FVec Ideal S1024 .f32) (h : Cert.Pre_finite_inputs.fn (F := Ideal) X P W B = fun _ => 1#1) :
    (∀ i, ∃ r : ℝ, X i = r) ∧ (∀ i, ∃ r : ℝ, P i = r) ∧ (∀ i, ∃ r : ℝ, W i = r) ∧ (∀ i, ∃ r : ℝ, B i = r) := by
  have h0 := congrFun h ValueIdx.ix0
  dsimp only [Cert.Pre_finite_inputs.fn, Cert.Pre_finite_inputs.fn_part1] at h0
  obtain ⟨h012, h3⟩ := IntOp.andi_eq_one.mp h0
  obtain ⟨h01, h2⟩ := IntOp.andi_eq_one.mp h012
  obtain ⟨hX, hP⟩ := IntOp.andi_eq_one.mp h01
  exact ⟨FiniteAll.all_real X _ _ _ _ hX, FiniteAll.all_real P _ _ _ _ hP, FiniteAll.all_real W _ _ _ _ h2,
    FiniteAll.all_real B _ _ _ _ h3⟩

end Cert.FiniteInputs

end
-- ==== Proof.lean ====
/-
  A fused add-and-layer-normalise kernel against its reference, at the ideal values.

  Both programs compute, for every batch entry b, sequence position s and column h,
  layer normalisation over the 1024 columns of e = input[b, s, :] + pos_table[s, :], scaled by the weight and
  shifted by the bias.  The kernel walks the sequence axis in 16 blocks of 512 rows and uses the fused arrangement
  (row sum and row sum of squares once, variance as E[e^2] - E[e]^2, reciprocal square root, the result as
  e * scale + shift); the reference takes the position rows by an (in-range) gather, centres the row, takes the
  variance of the centred row, and divides by a square root.  At the ideal values both are exact expressions over
  the extended reals; under the precondition every entry of every argument is a real number, and on real rows the
  two arrangements agree (Proof/LnRow.lean).  Proof/LnKernelValue.lean gives the kernel's output array as the fused
  arrangement of the arguments; Proof/LnRefRun.lean and Proof/LnRefRead.lean give the reference's result as the plain
  arrangement; Proof/LnFinite.lean reads real entries off the precondition.  The idealisation rewrote nothing, so the
  preservation claim is trivial; the three frames are the generated runs.
-/
import proofs.«155421_g44092134261159_cont_8to1c4_605_13_alg».proof.Defs
import proofs.«155421_g44092134261159_cont_8to1c4_605_13_alg».proof.Proof.Gen.Kernel
import proofs.«155421_g44092134261159_cont_8to1c4_605_13_alg».proof.Proof.Gen.Kernel.Skeleton
import proofs.«155421_g44092134261159_cont_8to1c4_605_13_alg».proof.Proof.Gen.Kernel.Launch
import proofs.«155421_g44092134261159_cont_8to1c4_605_13_alg».proof.Proof.Gen.Kernel.Points
import proofs.«155421_g44092134261159_cont_8to1c4_605_13_alg».proof.Proof.Gen.Kernel.Frame
import proofs.«155421_g44092134261159_cont_8to1c4_605_13_alg».proof.Proof.Gen.KernelIdeal
import proofs.«155421_g44092134261159_cont_8to1c4_605_13_alg».proof.Proof.Gen.KernelIdeal.Skeleton
import proofs.«155421_g44092134261159_cont_8to1c4_605_13_alg».proof.Proof.Gen.KernelIdeal.Launch
import proofs.«155421_g44092134261159_cont_8to1c4_605_13_alg».proof.Proof.Gen.KernelIdeal.Points
import proofs.«155421_g44092134261159_cont_8to1c4_605_13_alg».proof.Proof.Gen.KernelIdeal.Frame
import proofs.«155421_g44092134261159_cont_8to1c4_605_13_alg».proof.Proof.Gen.KernelIdeal.Value
import proofs.«155421_g44092134261159_cont_8to1c4_605_13_alg».proof.Proof.Gen.ReferenceIdeal
import proofs.«155421_g44092134261159_cont_8to1c4_605_13_alg».proof.Proof.Gen.Pre_finite_inputs
import proofs.«155421_g44092134261159_cont_8to1c4_605_13_alg».proof.Proof.LnRow
import proofs.«155421_g44092134261159_cont_8to1c4_605_13_alg».proof.Proof.LnArray
import proofs.«155421_g44092134261159_cont_8to1c4_605_13_alg».proof.Proof.LnKernelBlock
import proofs.«155421_g44092134261159_cont_8to1c4_605_13_alg».proof.Proof.LnKernelValue
import proofs.«155421_g44092134261159_cont_8to1c4_605_13_alg».proof.Proof.LnRefRun
import proofs.«155421_g44092134261159_cont_8to1c4_605_13_alg».proof.Proof.LnRefRead
import proofs.«155421_g44092134261159_cont_8to1c4_605_13_alg».proof.Proof.LnFinite
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result array is the plain arrangement of the arguments, index by index. -/
theorem reference_is_plain (X : FVec Ideal Cert.ReferenceIdeal.S4x8192x1024 .f32) (P : FVec Ideal Cert.ReferenceIdeal.S8192x1024 .f32)
    (W B : FVec Ideal Cert.ReferenceIdeal.S1024 .f32) :
    Cert.ReferenceIdeal.RefRun.refOut X P W B = Cert.LayerNormArray.plainArr X P W B := by
  funext i
  obtain ⟨b, s, h, rfl⟩ : ∃ (b : Fin 4) (s : Fin 8192) (h : Fin 1024), i = ix3 b s h := ⟨i 0, i 1, i 2, eq_ix3 i⟩
  rw [Cert.ReferenceIdeal.RefRead.refOut_apply, Cert.LayerNormArray.plainArr_apply]
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.RefRun.run (F := Ideal) m ρ)

/-- The kernel's run ends at the fused arrangement of its arguments, the reference's at the plain arrangement of
    arguments that agree with them; the precondition makes every entry real, where the two arrangements are equal. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  obtain ⟨hX, hP, hW, hB⟩ := Cert.FiniteInputs.entries_real _ _ _ _ (hpre c)
  rw [reference_is_plain]
  exact (Cert.LayerNormArray.arrays_agree _ _ _ _ hX hP hW hB).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
